-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x192 : Shape := ⟨2, ![524288, 192]⟩
abbrev S12x16x16 : Shape := ⟨3, ![12, 16, 16]⟩
abbrev S16 : Shape := ⟨1, ![16]⟩
abbrev S12x12 : Shape := ⟨2, ![12, 12]⟩
abbrev S12 : Shape := ⟨1, ![12]⟩
abbrev S_ : Shape := ⟨0, ![]⟩

class Facts : Prop where
  bcast_S_S524288x192 : S_.BroadcastsInDim S524288x192 (![] : Fin 0 → Fin S524288x192.rank)
  reducesTo_S524288x192_S_d0_1 : S524288x192.ReducesTo [0, 1] S_
  h_S_ : 0 < S_.numel
  bcast_S_S12x16x16 : S_.BroadcastsInDim S12x16x16 (![] : Fin 0 → Fin S12x16x16.rank)
  reducesTo_S12x16x16_S_d0_1_2 : S12x16x16.ReducesTo [0, 1, 2] S_
  bcast_S_S16 : S_.BroadcastsInDim S16 (![] : Fin 0 → Fin S16.rank)
  reducesTo_S16_S_d0 : S16.ReducesTo [0] S_

variable [Facts]

def fn {F : FTy → Type} [FloatOps F] (main_arg0 : FVec F S524288x192 .f32) (main_arg1 : FVec F S12x16x16 .f32) (main_arg2 : FVec F S16 .f32) (main_arg3 : IVec S12x12 32) (main_arg4 : IVec S12 32) : IVec S_ 1 :=
  let main_v0 : FVec F S524288x192 .f32 := Host.absf main_arg0
  let main_cst : FVec F S_ .f32 := constant S_ .f32 0x7F800000#32
  let main_v1 : FVec F S524288x192 .f32 := broadcastInDim S524288x192 ![] bcast_S_S524288x192 main_cst
  let main_v2 : IVec S524288x192 1 := cmpf .olt main_v0 main_v1
  let main_c : IVec S_ 1 := constantI S_ 1 1#1
  let main_v3 : IVec S_ 1 := (fun x v => Host.reduce IntOp.andi x v reducesTo_S524288x192_S_d0_1 h_S_) main_v2 main_c
  let main_v4 : FVec F S12x16x16 .f32 := Host.absf main_arg1
  let main_cst_0 : FVec F S_ .f32 := constant S_ .f32 0x7F800000#32
  let main_v5 : FVec F S12x16x16 .f32 := broadcastInDim S12x16x16 ![] bcast_S_S12x16x16 main_cst_0
  let main_v6 : IVec S12x16x16 1 := cmpf .olt main_v4 main_v5
  let main_c_1 : IVec S_ 1 := constantI S_ 1 1#1
  let main_v7 : IVec S_ 1 := (fun x v => Host.reduce IntOp.andi x v reducesTo_S12x16x16_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S524288x192 : Shape := ⟨2, ![524288, 192]⟩
abbrev S12x16x16 : Shape := ⟨3, ![12, 16, 16]⟩
abbrev S16 : Shape := ⟨1, ![16]⟩
abbrev S12x12 : Shape := ⟨2, ![12, 12]⟩
abbrev S12 : Shape := ⟨1, ![12]⟩
abbrev S12x1 : Shape := ⟨2, ![12, 1]⟩
abbrev S1x12 : Shape := ⟨2, ![1, 12]⟩
abbrev S_ : Shape := ⟨0, ![]⟩
abbrev S12x12x1 : Shape := ⟨3, ![12, 12, 1]⟩
abbrev S12x12x2 : Shape := ⟨3, ![12, 12, 2]⟩
abbrev S12x12x16x16 : Shape := ⟨4, ![12, 12, 16, 16]⟩
abbrev S12x16x12x16 : Shape := ⟨4, ![12, 16, 12, 16]⟩
abbrev S192x192 : Shape := ⟨2, ![192, 192]⟩
abbrev S1x16 : Shape := ⟨2, ![1, 16]⟩
abbrev S12x16 : Shape := ⟨2, ![12, 16]⟩
abbrev S192 : Shape := ⟨1, ![192]⟩
abbrev S1x192 : Shape := ⟨2, ![1, 192]⟩
abbrev S8192x192 : Shape := ⟨2, ![8192, 192]⟩
abbrev S4096x192 : Shape := ⟨2, ![4096, 192]⟩

abbrev nBuf : Space → Nat
  | .hbm => 46
  | .vmem => 6
  | .smem => 0
  | _ => 0

abbrev bufTy : (tb : Table) → Fin (tcTables nBuf tb) → BufTy
  | .hbm, ⟨0, _⟩ => ⟨S524288x192, .f32⟩
  | .hbm, ⟨1, _⟩ => ⟨S12x16x16, .f32⟩
  | .hbm, ⟨2, _⟩ => ⟨S16, .f32⟩
  | .hbm, ⟨3, _⟩ => ⟨S12x12, .i32⟩
  | .hbm, ⟨4, _⟩ => ⟨S12, .i32⟩
  | .hbm, ⟨5, _⟩ => ⟨S12, .i32⟩
  | .hbm, ⟨6, _⟩ => ⟨S12x1, .i32⟩
  | .hbm, ⟨7, _⟩ => ⟨S1x12, .i32⟩
  | .hbm, ⟨8, _⟩ => ⟨S_, .i32⟩
  | .hbm, ⟨9, _⟩ => ⟨S1x12, .i32⟩
  | .hbm, ⟨10, _⟩ => ⟨S1x12, .i1⟩
  | .hbm, ⟨11, _⟩ => ⟨S_, .i32⟩
  | .hbm, ⟨12, _⟩ => ⟨S1x12, .i32⟩
  | .hbm, ⟨13, _⟩ => ⟨S1x12, .i32⟩
  | .hbm, ⟨14, _⟩ => ⟨S1x12, .i32⟩
  | .hbm, ⟨15, _⟩ => ⟨S_, .i32⟩
  | .hbm, ⟨16, _⟩ => ⟨S12x1, .i32⟩
  | .hbm, ⟨17, _⟩ => ⟨S12x1, .i1⟩
  | .hbm, ⟨18, _⟩ => ⟨S_, .i32⟩
  | .hbm, ⟨19, _⟩ => ⟨S12x1, .i32⟩
  | .hbm, ⟨20, _⟩ => ⟨S12x1, .i32⟩
  | .hbm, ⟨21, _⟩ => ⟨S12x1, .i32⟩
  | .hbm, ⟨22, _⟩ => ⟨S12x12, .i32⟩
  | .hbm, ⟨23, _⟩ => ⟨S12x12, .i32⟩
  | .hbm, ⟨24, _⟩ => ⟨S12x12x1, .i32⟩
  | .hbm, ⟨25, _⟩ => ⟨S12x12x1, .i32⟩
  | .hbm, ⟨26, _⟩ => ⟨S12x12x2, .i32⟩
  | .hbm, ⟨27, _⟩ => ⟨S12x12, .i32⟩
  | .hbm, ⟨28, _⟩ => ⟨S_, .i32⟩
  | .hbm, ⟨29, _⟩ => ⟨S12x12, .i32⟩
  | .hbm, ⟨30, _⟩ => ⟨S12x12, .i1⟩
  | .hbm, ⟨31, _⟩ => ⟨S_, .i32⟩
  | .hbm, ⟨32, _⟩ => ⟨S12x12, .i32⟩
  | .hbm, ⟨33, _⟩ => ⟨S12x12, .i32⟩
  | .hbm, ⟨34, _⟩ => ⟨S12x12, .i32⟩
  | .hbm, ⟨35, _⟩ => ⟨S12x12x1, .i32⟩
  | .hbm, ⟨36, _⟩ => ⟨S12x12x16x16, .f32⟩
  | .hbm, ⟨37, _⟩ => ⟨S12x16x12x16, .f32⟩
  | .hbm, ⟨38, _⟩ => ⟨S192x192, .f32⟩
  | .hbm, ⟨39, _⟩ => ⟨S192x192, .f32⟩
  | .hbm, ⟨40, _⟩ => ⟨S192x192, .bf16⟩
  | .hbm, ⟨41, _⟩ => ⟨S1x16, .f32⟩
  | .hbm, ⟨42, _⟩ => ⟨S12x16, .f32⟩
  | .hbm, ⟨43, _⟩ => ⟨S192, .f32⟩
  | .hbm, ⟨44, _⟩ => ⟨S1x192, .f32⟩
  | .hbm, ⟨45, _⟩ => ⟨S524288x192, .f32⟩
  | .local _ .vmem, ⟨0, _⟩ => ⟨S8192x192, .f32⟩
  | .local _ .vmem, ⟨1, _⟩ => ⟨S8192x192, .f32⟩
  | .local _ .vmem, ⟨2, _⟩ => ⟨S192x192, .bf16⟩
  | .local _ .vmem, ⟨3, _⟩ => ⟨S1x192, .f32⟩
  | .local _ .vmem, ⟨4, _⟩ => ⟨S8192x192, .f32⟩
  | .local _ .vmem, ⟨5, _⟩ => ⟨S8192x192, .f32⟩
  | _, _ => ⟨S524288x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S12_S12x1_0 : S12.BroadcastsInDim S12x1 (![0] : Fin 1 → Fin S12x1.rank)
  bcast_S12_S1x12_1 : S12.BroadcastsInDim S1x12 (![1] : Fin 1 → Fin S1x12.rank)
  bcast_S_S1x12 : S_.BroadcastsInDim S1x12 (![] : Fin 0 → Fin S1x12.rank)
  bcast_S_S12x1 : S_.BroadcastsInDim S12x1 (![] : Fin 0 → Fin S12x1.rank)
  bcast_S1x12_S12x12_0_1 : S1x12.BroadcastsInDim S12x12 (![0, 1] : Fin 2 → Fin S12x12.rank)
  bcast_S12x1_S12x12_0_1 : S12x1.BroadcastsInDim S12x12 (![0, 1] : Fin 2 → Fin S12x12.rank)
  bcast_S12x12_S12x12x1_0_1 : S12x12.BroadcastsInDim S12x12x1 (![0, 1] : Fin 2 → Fin S12x12x1.rank)
  concatenates_S12x12x1_S12x12x1_S12x12x2_d2 : Shape.Concatenates [S12x12x1, S12x12x1] S12x12x2 2
  bcast_S_S12x12 : S_.BroadcastsInDim S12x12 (![] : Fin 0 → Fin S12x12.rank)
  transposes_S12x12x16x16_S12x16x12x16_0_2_1_3 : S12x12x16x16.Transposes [0, 2, 1, 3] S12x16x12x16
  shapeCasts_S12x16x12x16_S192x192 : S12x16x12x16.ShapeCasts S192x192
  transposes_S192x192_S192x192_1_0 : S192x192.Transposes [1, 0] S192x192
  bitsLt_bf16_f32 : FTy.bits .bf16 < FTy.bits .f32
  shapeCasts_S16_S1x16 : S16.ShapeCasts S1x16
  bcast_S1x16_S12x16_0_1 : S1x16.BroadcastsInDim S12x16 (![0, 1] : Fin 2 → Fin S12x16.rank)
  shapeCasts_S12x16_S192 : S12x16.ShapeCasts S192
  shapeCasts_S192_S1x192 : S192.ShapeCasts S1x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  inb_S8192x192_S4096x192_0_0 : ∀ a, (![0, 0] : Fin 2 → Nat) a + S4096x192.size a ≤ S8192x192.size a
  h_S4096x192 : 0 < S4096x192.numel
  broadcasts_S1x192_S4096x192 : S1x192.Broadcasts S4096x192
  inb_S8192x192_S4096x192_4096_0 : ∀ a, (![4096, 0] : Fin 2 → Nat) a + S4096x192.size a ≤ S8192x192.size a
  gather_S12x12_S12x12x2_S12x12_n_01_n_n_01_2_11_wf : GatherDims.WF S12x12 S12x12x2 S12x12 [] [0, 1] [] [0, 1] [] 2 ![1, 1]
  gather_S12x16x16_S12x12x1_S12x12x16x16_23_0_n_n_0_2_11616_wf : GatherDims.WF S12x16x16 S12x12x1 S12x12x16x16 [2, 3] [0] [] [0] [] 2 ![1, 16, 16]
  dot_S4096x192_S192x192_S4096x192_1_0_0_1_n_n_wf : DotDims.WF S4096x192 S192x192 S4096x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x192.size a ≤ S524288x192.size a
  hwx0_0 : ∀ i : grid0.Coords, EltTy.bits .f32 = 32 ∨ (Rect.block (s := S524288x192) S8192x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x192.size a ≤ S192x192.size a
  hwx0_1 : ∀ i : grid0.Coords, EltTy.bits .bf16 = 32 ∨ (Rect.block (s := S192x192) S192x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x192.size a ≤ S524288x192.size a
  hwx0_3 : ∀ i : grid0.Coords, EltTy.bits .f32 = 32 ∨ (Rect.block (s := S524288x192) S8192x192.size (cc0_transform_3 i) (hinb0_3 i)).WholeWords (EltTy.packing .f32)

variable [Facts₀]

def gather_S12x12_S12x12x2_S12x12_n_01_n_n_01_2_11 : GatherDims S12x12 S12x12x2 S12x12 where
  offsetDims := []
  collapsedSliceDims := [0, 1]
  operandBatchingDims := []
  startIndicesBatchingDims := []
  startIndexMap := [0, 1]
  indexVectorDim := 2
  sliceSizes := ![1, 1]
  wf := gather_S12x12_S12x12x2_S12x12_n_01_n_n_01_2_11_wf
def gather_S12x16x16_S12x12x1_S12x12x16x16_23_0_n_n_0_2_11616 : GatherDims S12x16x16 S12x12x1 S12x12x16x16 where
  offsetDims := [2, 3]
  collapsedSliceDims := [0]
  operandBatchingDims := []
  startIndicesBatchingDims := []
  startIndexMap := [0]
  indexVectorDim := 2
  sliceSizes := ![1, 16, 16]
  wf := gather_S12x16x16_S12x12x1_S12x12x16x16_23_0_n_n_0_2_11616_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf

abbrev win0_0 : Pipeline.Window sig grid0 :=
  Pipeline.Window.ofSpec (Memref.whole main_arg0) S8192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S192x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S8192x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x192 : Shape := ⟨2, ![524288, 192]⟩
abbrev S12x16x16 : Shape := ⟨3, ![12, 16, 16]⟩
abbrev S16 : Shape := ⟨1, ![16]⟩
abbrev S12x12 : Shape := ⟨2, ![12, 12]⟩
abbrev S12 : Shape := ⟨1, ![12]⟩
abbrev S12x1 : Shape := ⟨2, ![12, 1]⟩
abbrev S1x12 : Shape := ⟨2, ![1, 12]⟩
abbrev S_ : Shape := ⟨0, ![]⟩
abbrev S12x12x1 : Shape := ⟨3, ![12, 12, 1]⟩
abbrev S12x12x2 : Shape := ⟨3, ![12, 12, 2]⟩
abbrev S12x12x16x16 : Shape := ⟨4, ![12, 12, 16, 16]⟩
abbrev S12x16x12x16 : Shape := ⟨4, ![12, 16, 12, 16]⟩
abbrev S192x192 : Shape := ⟨2, ![192, 192]⟩
abbrev S524288x12x16 : Shape := ⟨3, ![524288, 12, 16]⟩
abbrev S1x1x16 : Shape := ⟨3, ![1, 1, 16]⟩

abbrev nBuf : Space → Nat
  | .hbm => 46
  | .vmem => 0
  | .smem => 0
  | _ => 0

abbrev bufTy : (tb : Table) → Fin (tcTables nBuf tb) → BufTy
  | .hbm, ⟨0, _⟩ => ⟨S524288x192, .f32⟩
  | .hbm, ⟨1, _⟩ => ⟨S12x16x16, .f32⟩
  | .hbm, ⟨2, _⟩ => ⟨S16, .f32⟩
  | .hbm, ⟨3, _⟩ => ⟨S12x12, .i32⟩
  | .hbm, ⟨4, _⟩ => ⟨S12, .i32⟩
  | .hbm, ⟨5, _⟩ => ⟨S12, .i32⟩
  | .hbm, ⟨6, _⟩ => ⟨S12x1, .i32⟩
  | .hbm, ⟨7, _⟩ => ⟨S1x12, .i32⟩
  | .hbm, ⟨8, _⟩ => ⟨S_, .i32⟩
  | .hbm, ⟨9, _⟩ => ⟨S1x12, .i32⟩
  | .hbm, ⟨10, _⟩ => ⟨S1x12, .i1⟩
  | .hbm, ⟨11, _⟩ => ⟨S_, .i32⟩
  | .hbm, ⟨12, _⟩ => ⟨S1x12, .i32⟩
  | .hbm, ⟨13, _⟩ => ⟨S1x12, .i32⟩
  | .hbm, ⟨14, _⟩ => ⟨S1x12, .i32⟩
  | .hbm, ⟨15, _⟩ => ⟨S_, .i32⟩
  | .hbm, ⟨16, _⟩ => ⟨S12x1, .i32⟩
  | .hbm, ⟨17, _⟩ => ⟨S12x1, .i1⟩
  | .hbm, ⟨18, _⟩ => ⟨S_, .i32⟩
  | .hbm, ⟨19, _⟩ => ⟨S12x1, .i32⟩
  | .hbm, ⟨20, _⟩ => ⟨S12x1, .i32⟩
  | .hbm, ⟨21, _⟩ => ⟨S12x1, .i32⟩
  | .hbm, ⟨22, _⟩ => ⟨S12x12, .i32⟩
  | .hbm, ⟨23, _⟩ => ⟨S12x12, .i32⟩
  | .hbm, ⟨24, _⟩ => ⟨S12x12x1, .i32⟩
  | .hbm, ⟨25, _⟩ => ⟨S12x12x1, .i32⟩
  | .hbm, ⟨26, _⟩ => ⟨S12x12x2, .i32⟩
  | .hbm, ⟨27, _⟩ => ⟨S12x12, .i32⟩
  | .hbm, ⟨28, _⟩ => ⟨S_, .i32⟩
  | .hbm, ⟨29, _⟩ => ⟨S12x12, .i32⟩
  | .hbm, ⟨30, _⟩ => ⟨S12x12, .i1⟩
  | .hbm, ⟨31, _⟩ => ⟨S_, .i32⟩
  | .hbm, ⟨32, _⟩ => ⟨S12x12, .i32⟩
  | .hbm, ⟨33, _⟩ => ⟨S12x12, .i32⟩
  | .hbm, ⟨34, _⟩ => ⟨S12x12, .i32⟩
  | .hbm, ⟨35, _⟩ => ⟨S12x12x1, .i32⟩
  | .hbm, ⟨36, _⟩ => ⟨S12x12x16x16, .f32⟩
  | .hbm, ⟨37, _⟩ => ⟨S12x16x12x16, .f32⟩
  | .hbm, ⟨38, _⟩ => ⟨S192x192, .f32⟩
  | .hbm, ⟨39, _⟩ => ⟨S192x192, .f32⟩
  | .hbm, ⟨40, _⟩ => ⟨S524288x192, .f32⟩
  | .hbm, ⟨41, _⟩ => ⟨S524288x12x16, .f32⟩
  | .hbm, ⟨42, _⟩ => ⟨S1x1x16, .f32⟩
  | .hbm, ⟨43, _⟩ => ⟨S524288x12x16, .f32⟩
  | .hbm, ⟨44, _⟩ => ⟨S524288x12x16, .f32⟩
  | .hbm, ⟨45, _⟩ => ⟨S524288x192, .f32⟩
  | _, _ => ⟨S524288x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S12_S12x1_0 : S12.BroadcastsInDim S12x1 (![0] : Fin 1 → Fin S12x1.rank)
  bcast_S12_S1x12_1 : S12.BroadcastsInDim S1x12 (![1] : Fin 1 → Fin S1x12.rank)
  bcast_S_S1x12 : S_.BroadcastsInDim S1x12 (![] : Fin 0 → Fin S1x12.rank)
  bcast_S_S12x1 : S_.BroadcastsInDim S12x1 (![] : Fin 0 → Fin S12x1.rank)
  bcast_S1x12_S12x12_0_1 : S1x12.BroadcastsInDim S12x12 (![0, 1] : Fin 2 → Fin S12x12.rank)
  bcast_S12x1_S12x12_0_1 : S12x1.BroadcastsInDim S12x12 (![0, 1] : Fin 2 → Fin S12x12.rank)
  bcast_S12x12_S12x12x1_0_1 : S12x12.BroadcastsInDim S12x12x1 (![0, 1] : Fin 2 → Fin S12x12x1.rank)
  concatenates_S12x12x1_S12x12x1_S12x12x2_d2 : Shape.Concatenates [S12x12x1, S12x12x1] S12x12x2 2
  bcast_S_S12x12 : S_.BroadcastsInDim S12x12 (![] : Fin 0 → Fin S12x12.rank)
  transposes_S12x12x16x16_S12x16x12x16_0_2_1_3 : S12x12x16x16.Transposes [0, 2, 1, 3] S12x16x12x16
  shapeCasts_S12x16x12x16_S192x192 : S12x16x12x16.ShapeCasts S192x192
  transposes_S192x192_S192x192_1_0 : S192x192.Transposes [1, 0] S192x192
  shapeCasts_S524288x192_S524288x12x16 : S524288x192.ShapeCasts S524288x12x16
  bcast_S16_S1x1x16_2 : S16.BroadcastsInDim S1x1x16 (![2] : Fin 1 → Fin S1x1x16.rank)
  bcast_S1x1x16_S524288x12x16_0_1_2 : S1x1x16.BroadcastsInDim S524288x12x16 (![0, 1, 2] : Fin 3 → Fin S524288x12x16.rank)
  shapeCasts_S524288x12x16_S524288x192 : S524288x12x16.ShapeCasts S524288x192
  gather_S12x12_S12x12x2_S12x12_n_01_n_n_01_2_11_wf : GatherDims.WF S12x12 S12x12x2 S12x12 [] [0, 1] [] [0, 1] [] 2 ![1, 1]
  gather_S12x16x16_S12x12x1_S12x12x16x16_23_0_n_n_0_2_11616_wf : GatherDims.WF S12x16x16 S12x12x1 S12x12x16x16 [2, 3] [0] [] [0] [] 2 ![1, 16, 16]
  dot_S524288x192_S192x192_S524288x192_1_0_0_1_n_n_wf : DotDims.WF S524288x192 S192x192 S524288x192 [1] [0] [0] [1] [] []

variable [Facts₀]

def gather_S12x12_S12x12x2_S12x12_n_01_n_n_01_2_11 : GatherDims S12x12 S12x12x2 S12x12 where
  offsetDims := []
  collapsedSliceDims := [0, 1]
  operandBatchingDims := []
  startIndicesBatchingDims := []
  startIndexMap := [0, 1]
  indexVectorDim := 2
  sliceSizes := ![1, 1]
  wf := gather_S12x12_S12x12x2_S12x12_n_01_n_n_01_2_11_wf
def gather_S12x16x16_S12x12x1_S12x12x16x16_23_0_n_n_0_2_11616 : GatherDims S12x16x16 S12x12x1 S12x12x16x16 where
  offsetDims := [2, 3]
  collapsedSliceDims := [0]
  operandBatchingDims := []
  startIndicesBatchingDims := []
  startIndexMap := [0]
  indexVectorDim := 2
  sliceSizes := ![1, 16, 16]
  wf := gather_S12x16x16_S12x12x1_S12x12x16x16_23_0_n_n_0_2_11616_wf
def dot_S524288x192_S192x192_S524288x192_1_0_0_1_n_n : DotDims S524288x192 S192x192 S524288x192 where
  lhsContracting := [1]
  rhsContracting := [0]
  lhsNonContracting := [0]
  rhsNonContracting := [1]
  lhsBatch := []
  rhsBatch := []
  wf := dot_S524288x192_S192x192_S524288x192_1_0_0_1_n_n_wf

class Facts : Prop extends Facts₀ where

variable [Facts]
-- ==== Proof.Chunk.lean ====
/-
  One row chunk of the dense layer, read at an index.

  The kernel body treats its 8192-row block of `x` as two chunks of 4096 rows.  For each chunk it rounds the rows to
  bf16 (the identity on extended reals), multiplies them by the resident 192×192 weight block into a zero accumulator,
  adds the bias row broadcast over the rows, and stores the result at the chunk's rows.  On extended reals entry
  (p, q) of such a chunk is therefore  Σ_k xs[p, k] · w[k, q]  +  b[0, q]:  the matrix product as a plain finite sum
  over the contraction axis, plus the bias entry of column q.
-/
import proofs.«163079_j13417477833309_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx

/-- The left operand's index at output index `i` and contraction index `q`: row of `i`, column `q`. -/
theorem lhs_row (i : S4096x192.Idx) (q : dot_S4096x192_S192x192_S4096x192_1_0_0_1_n_n.contr.Idx) :
    (dot_S4096x192_S192x192_S4096x192_1_0_0_1_n_n.lhsIdx i q 0).val = (i 0).val := by
  unfold DotDims.lhsIdx
  rw [dif_neg (show ¬(0 : Fin S4096x192.rank) ∈ dot_S4096x192_S192x192_S4096x192_1_0_0_1_n_n.lhsBatch by decide),
    dif_pos (show (0 : Fin S4096x192.rank) ∈ dot_S4096x192_S192x192_S4096x192_1_0_0_1_n_n.lhsNonContracting by decide)]
  rfl
theorem lhs_col (i : S4096x192.Idx) (q : dot_S4096x192_S192x192_S4096x192_1_0_0_1_n_n.contr.Idx) :
    (dot_S4096x192_S192x192_S4096x192_1_0_0_1_n_n.lhsIdx i q 1).val = (q ⟨0, by decide⟩).val :=
  dot_S4096x192_S192x192_S4096x192_1_0_0_1_n_n.lhsIdx_val_of_single rfl i q
/-- The right operand's index: row `q`, column of `i`. -/
theorem rhs_row (i : S4096x192.Idx) (q : dot_S4096x192_S192x192_S4096x192_1_0_0_1_n_n.contr.Idx) :
    (dot_S4096x192_S192x192_S4096x192_1_0_0_1_n_n.rhsIdx i q 0).val = (q ⟨0, by decide⟩).val :=
  dot_S4096x192_S192x192_S4096x192_1_0_0_1_n_n.rhsIdx_val_of_single rfl i q
theorem rhs_col (i : S4096x192.Idx) (q : dot_S4096x192_S192x192_S4096x192_1_0_0_1_n_n.contr.Idx) :
    (dot_S4096x192_S192x192_S4096x192_1_0_0_1_n_n.rhsIdx i q 1).val = (i 1).val := by
  unfold DotDims.rhsIdx
  rw [dif_neg (show ¬(1 : Fin S192x192.rank) ∈ dot_S4096x192_S192x192_S4096x192_1_0_0_1_n_n.rhsBatch by decide),
    dif_pos (show (1 : Fin S192x192.rank) ∈ dot_S4096x192_S192x192_S4096x192_1_0_0_1_n_n.rhsNonContracting by decide)]
  rfl

/-- The product of a 4096×192 chunk with a 192×192 matrix into a zero accumulator, at entry (p, q): the sum over the
    contraction coordinate k of chunk[p, k] · matrix[k, q]. -/
theorem matmul_zero_apply (xs : FVec Ideal S4096x192 .bf16) (w : FVec Ideal S192x192 .bf16) (p : Fin 4096) (q : Fin 192) :
    matmul dot_S4096x192_S192x192_S4096x192_1_0_0_1_n_n none xs w (constant S4096x192 .f32 0x00000000#32) (ix2 p q)
      = ∑ k : Fin 192, xs (ix2 p k) * w (ix2 k q) := by
  refine (Ideal.matmul_constant_zero_apply dot_S4096x192_S192x192_S4096x192_1_0_0_1_n_n none xs w (ix2 p q)).trans ?_
  rw [← Equiv.sum_comp (contrEquiv1 dot_S4096x192_S192x192_S4096x192_1_0_0_1_n_n 192 rfl rfl).symm]
  refine Finset.sum_congr rfl fun k _ => ?_
  have hk := contrEquiv1_symm_val dot_S4096x192_S192x192_S4096x192_1_0_0_1_n_n 192 rfl rfl k
  have el : dot_S4096x192_S192x192_S4096x192_1_0_0_1_n_n.lhsIdx (ix2 p q)
      ((contrEquiv1 dot_S4096x192_S192x192_S4096x192_1_0_0_1_n_n 192 rfl rfl).symm k) = ix2 p k :=
    funext fun a => Fin.ext (by
      match a with
      | ⟨0, _⟩ => exact lhs_row _ _
      | ⟨1, _⟩ => exact (lhs_col _ _).trans hk)
  have er : dot_S4096x192_S192x192_S4096x192_1_0_0_1_n_n.rhsIdx (ix2 p q)
      ((contrEquiv1 dot_S4096x192_S192x192_S4096x192_1_0_0_1_n_n 192 rfl rfl).symm k) = ix2 k q :=
    funext fun a => Fin.ext (by
      match a with
      | ⟨0, _⟩ => exact (rhs_row _ _).trans hk
      | ⟨1, _⟩ => exact rhs_col _ _)
  rw [el, er]

/-- The bias row broadcast over the 4096 rows of a chunk, at entry (p, q): the row's entry of column q. -/
theorem bias_rows_apply (b : FVec Ideal S1x192 .f32) (p : Fin 4096) (q : Fin 192) :
    broadcastTo S4096x192 b broadcasts_S1x192_S4096x192 (ix2 p q) = b (ix2 0 q) :=
  broadcastTo_apply b broadcasts_S1x192_S4096x192 (ix2 p q) (ix2 0 q) (fun a => by
    match a with
    | ⟨0, _⟩ => rfl
    | ⟨1, _⟩ => rfl)

/-- What one chunk stores, at entry (p, q): Σ_k xs[p, k] · w[k, q] + b[0, q]. -/
def chunkVal (w : Vec Ideal S192x192 .bf16) (b : Vec Ideal S1x192 .f32) (xs : Vec Ideal S4096x192 .f32) :
    S4096x192.Idx → EReal :=
  fun y => (∑ k : Fin 192, xs (ix2 (y 0) k) * w (ix2 k (y 1))) + b (ix2 0 (y 1))

/-- The first chunk's stored value is `chunkVal`. -/
theorem pay3_eq (w : Vec Ideal S192x192 .bf16) (b : Vec Ideal S1x192 .f32) (xs : Vec Ideal S4096x192 .f32) :
    k0_pay3 w b xs = chunkVal w b xs := by
  funext y
  obtain ⟨p, q, rfl⟩ : ∃ (p : Fin 4096) (q : Fin 192), y = ix2 p q := ⟨y 0, y 1, eq_ix2 y⟩
  unfold k0_pay3 k0_pay1 k0_pay2 chunkVal
  refine (addf_apply _ _ (ix2 p q)).trans ?_
  refine congrArg₂ (· + ·) ?_ ?_
  · rw [shapeCast_self]
    exact matmul_zero_apply (truncf .bf16 xs bitsLt_bf16_f32) w p q
  · rw [shapeCast_self]
    exact bias_rows_apply b p q

/-- The second chunk's stored value is `chunkVal` as well (the same operations on the second half of the rows). -/
theorem pay4_eq (w : Vec Ideal S192x192 .bf16) (b : Vec Ideal S1x192 .f32) (xs : Vec Ideal S4096x192 .f32) :
    k0_pay4 w b xs = chunkVal w b xs := by
  funext y
  obtain ⟨p, q, rfl⟩ : ∃ (p : Fin 4096) (q : Fin 192), y = ix2 p q := ⟨y 0, y 1, eq_ix2 y⟩
  unfold k0_pay4 k0_pay1 k0_pay2 chunkVal
  refine (addf_apply _ _ (ix2 p q)).trans ?_
  refine congrArg₂ (· + ·) ?_ ?_
  · rw [shapeCast_self]
    exact matmul_zero_apply (truncf .bf16 xs bitsLt_bf16_f32) w p q
  · rw [shapeCast_self]
    exact bias_rows_apply b p q

end Cert.KernelIdeal.Chunk

end
-- ==== Proof.Block.lean ====
/-
  The whole 8192-row block the kernel body leaves in its output buffer.

  The body stores two chunks, rows 0…4095 and rows 4096…8191, each the product of that half of the `x` block with the
  weight block plus the bias row (`Chunk.chunkVal`).  Together the two stores tile the output block, and each is the
  restriction to its rows of ONE function of the block index: entry (r, q) is  Σ_k x[r, k] · w[k, q] + b[0, q].
-/
import proofs.«163079_j13417477833309_2_alg».proof.Proof.Gen.KernelIdeal.Frame
import proofs.«163079_j13417477833309_2_alg».proof.Proof.Chunk

noncomputable section

namespace Cert.KernelIdeal.Block

open Cert.KernelIdeal Cert.KernelIdeal.Gen Cert.KernelIdeal.Chunk Idealize.ShloMosaic Idealize.ShloMosaic.ValueIdx

/-- The block as one function of its index: row r of `x0` against column q of `x1`, plus the bias entry of column q. -/
def blockVal (x0 : Vec Ideal S8192x192 .f32) (x1 : Vec Ideal S192x192 .bf16) (x2 : Vec Ideal S1x192 .f32) :
    S8192x192.Idx → EReal :=
  fun y => (∑ k : Fin 192, x0 (ix2 (y 0) k) * x1 (ix2 k (y 1))) + x2 (ix2 0 (y 1))

theorem hz : (![0, 0] : Fin 2 → Nat) = fun _ => 0 := funext fun a => by fin_cases a <;> rfl

/-- A chunk of 4096 rows starting at row `o` of the block (o = 0 or 4096) is the block function restricted to those
    rows: the chunk's row p is the block's row o + p. -/
theorem chunk_is_block (x0 : Vec Ideal S8192x192 .f32) (x1 : Vec Ideal S192x192 .bf16) (x2 : Vec Ideal S1x192 .f32)
    (o : Nat) (inb : ∀ a, (![o, 0] : Fin 2 → Nat) a + S4096x192.size a ≤ S8192x192.size a) (x : S4096x192.Idx) :
    chunkVal x1 x2 (View.ld x0 (Rect.unit (s := S8192x192) ![o, 0] S4096x192.size inb)) x
      = blockVal x0 x1 x2 ((Rect.unit (s := S8192x192) ![o, 0] S4096x192.size inb).emb x) := by
  obtain ⟨p, q, rfl⟩ : ∃ (p : Fin 4096) (q : Fin 192), x = ix2 p q := ⟨x 0, x 1, eq_ix2 x⟩
  unfold chunkVal blockVal
  have hq : ((Rect.unit (s := S8192x192) ![o, 0] S4096x192.size inb).emb (ix2 p q)) 1 = q :=
    Fin.ext (by
      show (![o, 0] : Fin 2 → Nat) 1 + 1 * q.val = q.val
      show 0 + 1 * q.val = q.val
      omega)
  have hrow : ∀ k : Fin 192, View.ld x0 (Rect.unit (s := S8192x192) ![o, 0] S4096x192.size inb) (ix2 p k)
      = x0 (ix2 (((Rect.unit (s := S8192x192) ![o, 0] S4096x192.size inb).emb (ix2 p q)) 0) k) := fun k =>
    congrArg x0 (funext fun a => Fin.ext (by
      match a with
      | ⟨0, _⟩ => rfl
      | ⟨1, _⟩ =>
        show 0 + 1 * k.val = k.val
        omega))
  rw [hq]
  exact congrArg (· + x2 (ix2 0 q)) (Finset.sum_congr rfl fun k _ => by rw [hrow k])

/-- What the body leaves in the output buffer is the block function of the three input blocks. -/
theorem out_eq (x0 : Vec Ideal S8192x192 .f32) (x1 : Vec Ideal S192x192 .bf16) (x2 : Vec Ideal S1x192 .f32) :
    out0_3 x0 x1 x2 = blockVal x0 x1 x2 := by
  funext y
  unfold out0_3
  rw [pay3_eq, pay4_eq]
  simp only [View.ld_unit_zero (S := S192x192) hz, View.ld_unit_zero (S := S1x192) hz]
  refine View.canon_apply_of_pieces (Val := Elt Ideal) (e := .f32) (blockVal x0 x1 x2) _ ?_ y (cover0_3 _ _ y)
  intro pc hpc x
  rcases List.mem_cons.mp hpc with rfl | hpc
  · exact chunk_is_block x0 x1 x2 4096 inb_S8192x192_S4096x192_4096_0 x
  · rcases List.mem_cons.mp hpc with rfl | hpc
    · exact chunk_is_block x0 x1 x2 0 inb_S8192x192_S4096x192_0_0 x
    · exact absurd hpc List.not_mem_nil

end Cert.KernelIdeal.Block

end
-- ==== Proof.Host.lean ====
/-
  What the host operations before the kernel launch leave in the two small operands of the launch.

  The weight operand is the transposed group-equivariant weight matrix — the small [12,16,16] kernel gathered through the
  Cayley table, re-laid as 192×192 and transposed — rounded to bf16, which on extended reals is the identity.  The
  reference builds the very same matrix by the very same operations before its own matrix product, so it is named here
  by the reference's term for it and never opened.

  The bias operand is the 16 biases repeated 12 times as one row of 192: entry (0, q) is bias[q mod 16].
-/
import proofs.«163079_j13417477833309_2_alg».proof.Proof.Gen.KernelIdeal.Frame
import proofs.«163079_j13417477833309_2_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The transposed weight matrix W^T[k, q] as a function of the small kernel, the Cayley table and the inverse
    table: the reference's own term for it. -/
abbrev weightsT (x1 : (⟨S12x16x16, .f32⟩ : BufTy).Contents (Elt Ideal)) (x3 : (⟨S12x12, .i32⟩ : BufTy).Contents (Elt Ideal))
    (x4 : (⟨S12, .i32⟩ : BufTy).Contents (Elt Ideal)) : S192x192.Idx → EReal :=
  Cert.ReferenceIdeal.Read.val_main_v28 (F := Ideal) x1 x3 x4

/-- After the host operations, from any starting contents, the weight operand holds W^T of the starting contents of the
    three small arguments. -/
theorem weights_after (Vl : Valuation τ sig (Elt Ideal)) :
    after (hostOps0 (F := Ideal)) Vl main_v29 = weightsT (Vl main_arg1) (Vl main_arg3) (Vl main_arg4) := by
  after_results_simp
  rfl

/-- The 16 biases as a row of 192. -/
def biasRow (b : S16.Idx → EReal) : S1x192.Idx → EReal :=
  shapeCast S1x192 (shapeCast S192 (broadcastInDim S12x16 ![0, 1] bcast_S1x16_S12x16_0_1
    (shapeCast S1x16 b shapeCasts_S16_S1x16)) shapeCasts_S12x16_S192) shapeCasts_S192_S1x192

/-- After the host operations the bias operand holds that row. -/
theorem bias_after (Vl : Valuation τ sig (Elt Ideal)) :
    after (hostOps0 (F := Ideal)) Vl main_v33 = biasRow (Vl main_arg2) := by
  after_results_simp
  rfl

/-- Entry (0, q) of the bias row is bias[q mod 16]. -/
theorem biasRow_apply (b : S16.Idx → EReal) (q : Fin 192) :
    biasRow b (ix2 0 q) = b (ix1 ⟨q.val % 16, Nat.mod_lt _ (by decide)⟩) := by
  unfold biasRow
  have hq : q.val < 192 := q.isLt
  rw [shapeCast_apply _ shapeCasts_S192_S1x192 (ix2 0 q) (ix1 q) (by
      rewrite [Shape.rowMajor_val_one, Shape.rowMajor_val_two]
      show q.val = 0 * 192 + q.val
      omega),
    shapeCast_apply _ shapeCasts_S12x16_S192 (ix1 q) (ix2 ⟨q.val / 16, by omega⟩ ⟨q.val % 16, by omega⟩) (by
      rewrite [Shape.rowMajor_val_one, Shape.rowMajor_val_two]
      show q.val / 16 * 16 + q.val % 16 = q.val
      omega),
    broadcastInDim_apply _ bcast_S1x16_S12x16_0_1 _ _ (ix2 0 ⟨q.val % 16, by omega⟩) (fun a => by
      match a with
      | ⟨0, _⟩ => show 0 = if (1 : Nat) = 1 then 0 else q.val / 16; rw [if_pos rfl]
      | ⟨1, _⟩ => show q.val % 16 = if (16 : Nat) = 1 then 0 else q.val % 16; rw [if_neg (by decide)]),
    shapeCast_apply _ shapeCasts_S16_S1x16 (ix2 0 ⟨q.val % 16, by omega⟩) (ix1 ⟨q.val % 16, by omega⟩) (by
      rewrite [Shape.rowMajor_val_one, Shape.rowMajor_val_two]
      show q.val % 16 = 0 * 16 + q.val % 16
      omega)]

variable (m : (ℓ : Loc nD τ sig) → Buf (Elt Ideal) ℓ)

/-- The weight operand as the launch finds it. -/
theorem V_weights (c : Dev nD) :
    (V m c main_v29 : S192x192.Idx → EReal)
      = weightsT (m ((c : Thread nD τ).loc main_arg1)) (m ((c : Thread nD τ).loc main_arg3)) (m ((c : Thread nD τ).loc main_arg4)) :=
  weights_after (fun b => m (c, b))

/-- The bias operand as the launch finds it. -/
theorem V_bias (c : Dev nD) :
    (V m c main_v33 : S1x192.Idx → EReal) = biasRow (m ((c : Thread nD τ).loc main_arg2)) :=
  bias_after (fun b => m (c, b))

end Cert.KernelIdeal.Host

end
-- ==== Proof.Dense.lean ====
/-
  The dense layer as one function of its arguments, index by index.

  For an input x of 524288 rows and 192 columns, a 192×192 matrix wt (indexed [contraction k, output column q]) and 16
  biases b, entry (n, q) of the result is

        Σ_{k < 192} x[n, k] · wt[k, q]  +  b[q mod 16]

  on the extended reals: a finite sum of products, then one addition.  Both programs compute exactly this expression,
  so no algebraic law beyond reading each side at an index is needed.
-/
import Idealize.ShloMosaic.PureOps.Ideal
import Idealize.ShloMosaic.Lib.ValueIdx

noncomputable section

namespace Cert.Dense

open Idealize.ShloMosaic Idealize.ShloMosaic.ValueIdx

/-- Entry (n, q) of the layer's output. -/
def dense (x : (⟨2, ![524288, 192]⟩ : Shape).Idx → EReal) (wt : (⟨2, ![192, 192]⟩ : Shape).Idx → EReal)
    (b : (⟨1, ![16]⟩ : Shape).Idx → EReal) : (⟨2, ![524288, 192]⟩ : Shape).Idx → EReal :=
  fun i => (∑ k : Fin 192, x (ix2 (i 0) k) * wt (ix2 k (i 1)))
    + b (ix1 ⟨(i 1).val % 16, Nat.mod_lt _ (by decide)⟩)

/-- The same at explicit coordinates. -/
theorem dense_apply (x : (⟨2, ![524288, 192]⟩ : Shape).Idx → EReal) (wt : (⟨2, ![192, 192]⟩ : Shape).Idx → EReal)
    (b : (⟨1, ![16]⟩ : Shape).Idx → EReal) (n : Fin 524288) (q : Fin 192) :
    dense x wt b (ix2 n q) = (∑ k : Fin 192, x (ix2 n k) * wt (ix2 k q))
      + b (ix1 ⟨q.val % 16, Nat.mod_lt _ (by decide)⟩) := rfl

end Cert.Dense

end
-- ==== Proof.Whole.lean ====
/-
  The kernel's output array after the run is the dense layer.

  The launch walks 64 grid points; point t stages rows 8192·t … 8192·t + 8191 of x, the whole weight operand and the
  whole bias row, and writes back rows 8192·t … of the output.  What it writes is the block function of the staged
  blocks (`Block.out_eq`), i.e. the dense layer restricted to those rows; the 64 row blocks tile the output, so the
  output array ends holding the dense layer everywhere.
-/
import proofs.«163079_j13417477833309_2_alg».proof.Proof.Gen.KernelIdeal.Value
import proofs.«163079_j13417477833309_2_alg».proof.Proof.Block
import proofs.«163079_j13417477833309_2_alg».proof.Proof.Host
import proofs.«163079_j13417477833309_2_alg».proof.Proof.Dense
import Idealize.ShloMosaic.Lib.Pipeline.Value

noncomputable section

namespace Cert.KernelIdeal.Whole

open Cert.KernelIdeal Cert.KernelIdeal.Gen Cert.KernelIdeal.Value Cert.KernelIdeal.Block Cert.KernelIdeal.Host Cert.Dense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four index maps over the 64 grid points: x and the output move one row block per point, the weights and the bias
    stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- If `x0` is the block of rows 8192·tv … of `X`, `x1` is `WT` and `x2` is the bias row of `B`, then the block function
    at a block index `y` is the dense layer at the array index `i` that `y` names: row 8192·tv + y₀, column y₁. -/
theorem blockVal_is_dense (X : S524288x192.Idx → EReal) (WT : S192x192.Idx → EReal) (B : S16.Idx → EReal)
    (x0 : Vec Ideal S8192x192 .f32) (x1 : Vec Ideal S192x192 .bf16) (x2 : Vec Ideal S1x192 .f32) (tv : Nat)
    (h0 : ∀ (y : S8192x192.Idx) (i : S524288x192.Idx), (i 0).val = tv * 8192 + (y 0).val → (i 1).val = (y 1).val → x0 y = X i)
    (h1 : x1 = WT)
    (h2 : ∀ q : Fin 192, x2 (ix2 0 q) = B (ix1 ⟨q.val % 16, Nat.mod_lt _ (by decide)⟩))
    (y : S8192x192.Idx) (i : S524288x192.Idx) (hi0 : (i 0).val = tv * 8192 + (y 0).val) (hi1 : (i 1).val = (y 1).val) :
    blockVal x0 x1 x2 y = dense X WT B i := by
  obtain ⟨r, q, rfl⟩ : ∃ (r : Fin 8192) (q : Fin 192), y = ix2 r q := ⟨y 0, y 1, eq_ix2 y⟩
  obtain ⟨n, q', rfl⟩ : ∃ (n : Fin 524288) (q' : Fin 192), i = ix2 n q' := ⟨i 0, i 1, eq_ix2 i⟩
  obtain rfl : q' = q := Fin.ext hi1
  rw [dense_apply]
  show (∑ k : Fin 192, x0 (ix2 r k) * x1 (ix2 k q')) + x2 (ix2 0 q') = _
  rw [h2 q', h1]
  exact congrArg (· + B (ix1 ⟨q'.val % 16, Nat.mod_lt _ (by decide)⟩))
    (Finset.sum_congr rfl fun k _ => by rw [h0 (ix2 r k) (ix2 n k) hi0 rfl])

/-- The x block at point t is rows 8192·t … of the argument. -/
theorem read_x (c : Dev nD) (t : Fin cfg0.N) (y : S8192x192.Idx) (i : S524288x192.Idx)
    (hi0 : (i 0).val = t.val * 8192 + (y 0).val) (hi1 : (i 1).val = (y 1).val) :
    (iblk m c 0 t : Vec Ideal S8192x192 .f32) y = (m ((c : Thread nD τ).loc main_arg0) : S524288x192.Idx → EReal) i := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 8192 + 1 * (y 0).val = (i 0).val; rw [e0, hi0]; omega
  | ⟨1, _⟩ => show win0_0.index t 1 * 192 + 1 * (y 1).val = (i 1).val; rw [e1, hi1]; omega

/-- The weight block at every point is the whole weight operand. -/
theorem read_w (c : Dev nD) (t : Fin cfg0.N) :
    (iblk m c 1 t : Vec Ideal S192x192 .bf16) = (V m c main_v29 : S192x192.Idx → EReal) := by
  obtain ⟨-, -, e2, e3, -⟩ := idx_facts t
  funext y
  unfold iblk
  rw [View.read_apply]
  show V m c main_v29 _ = V m c main_v29 y
  refine congrArg _ (funext fun a => Fin.ext ?_)
  match a with
  | ⟨0, _⟩ => show win0_1.index t 0 * 192 + 1 * (y 0).val = (y 0).val; rw [e2]; omega
  | ⟨1, _⟩ => show win0_1.index t 1 * 192 + 1 * (y 1).val = (y 1).val; rw [e3]; omega

/-- The bias block at every point is the whole bias operand. -/
theorem read_b (c : Dev nD) (t : Fin cfg0.N) :
    (iblk m c 2 t : Vec Ideal S1x192 .f32) = (V m c main_v33 : S1x192.Idx → EReal) := by
  obtain ⟨-, -, -, -, e4, e5, -⟩ := idx_facts t
  funext y
  unfold iblk
  rw [View.read_apply]
  show V m c main_v33 _ = V m c main_v33 y
  refine congrArg _ (funext fun a => Fin.ext ?_)
  match a with
  | ⟨0, _⟩ => show win0_2.index t 0 * 1 + 1 * (y 0).val = (y 0).val; rw [e4]; omega
  | ⟨1, _⟩ => show win0_2.index t 1 * 192 + 1 * (y 1).val = (y 1).val; rw [e5]; omega

/-- The dense layer of the launch's arguments: x, the transposed weight matrix built from the three small arguments, the
    biases. -/
abbrev result (c : Dev nD) : S524288x192.Idx → EReal :=
  dense (m ((c : Thread nD τ).loc main_arg0))
    (weightsT (m ((c : Thread nD τ).loc main_arg1)) (m ((c : Thread nD τ).loc main_arg3)) (m ((c : Thread nD τ).loc main_arg4)))
    (m ((c : Thread nD τ).loc main_arg2))

/-- What point t writes back is block t of the dense layer. -/
theorem flushed_eq (c : Dev nD) (t : Fin cfg0.N) :
    (dats m 0 c).flushed 3 t = ((cfg0.win 3).blk t).view.read (Elt Ideal) (result m c) := by
  rw [flushed3, out_eq]
  obtain ⟨-, -, -, -, -, -, e6, e7⟩ := idx_facts t
  funext j
  show blockVal (iblk m c 0 t) (iblk m c 1 t) (iblk m c 2 t) j = result m c (((cfg0.win 3).blk t).view.emb j)
  refine blockVal_is_dense _ _ _ _ _ _ t.val (read_x m c t) ((read_w m c t).trans (V_weights m c)) (fun q => ?_) j _ ?_ ?_
  · rw [read_b m c t, V_bias m c]
    exact biasRow_apply _ q
  · show win0_3.index t 0 * 8192 + 1 * (j 0).val = t.val * 8192 + (j 0).val
    rw [e6]; omega
  · show win0_3.index t 1 * 192 + 1 * (j 1).val = (j 1).val
    rw [e7]; omega

/-- An array index lies in point t's output block iff each coordinate lies in the block's range. -/
theorem mem_blk (t : Fin cfg0.N) (i : S524288x192.Idx) :
    i ∈ ((cfg0.win 3).blk t).view.set ↔ ∀ a : Fin 2, win0_3.index t a * S8192x192.size a ≤ (i a).val
      ∧ (i a).val < win0_3.index t a * S8192x192.size a + S8192x192.size a := by
  show i ∈ ((View.whole main_v34).slice (win0_3.rect t)).set ↔ _
  rw [View.set_slice_whole, Rect.mem_set_unit]
  exact Iff.rfl

/-- Row n of the output lies in the block of point n / 8192: the 64 blocks tile the array. -/
theorem cover (i : S524288x192.Idx) :
    ∃ t : Fin cfg0.N, (cfg0.win 3).flush t = true ∧ i ∈ ((cfg0.win 3).blk t).view.set := by
  have hi0 : (i 0).val < 524288 := (i 0).isLt
  have hi1 : (i 1).val < 192 := (i 1).isLt
  have hN : cfg0.N = 64 := N_0
  obtain ⟨t, ht⟩ : ∃ t : Fin cfg0.N, t.val = (i 0).val / 8192 := ⟨⟨(i 0).val / 8192, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t 0 * 8192 ≤ (i 0).val ∧ (i 0).val < win0_3.index t 0 * 8192 + 8192
    rw [e6, ht]; omega
  | ⟨1, _⟩ =>
    show win0_3.index t 1 * 192 ≤ (i 1).val ∧ (i 1).val < win0_3.index t 1 * 192 + 192
    rw [e7]; omega

/-- The output array after the run is the dense layer. -/
theorem final (c : Dev nD) : (dats m 0 c).arrAt 3 cfg0.N = result m c :=
  (dats m 0 c).arrAt_eq_of_cover 3 (result m c) (fun t _ => flushed_eq m c t) cover

/-- The kernel's run, read: every execution ends with the output array at the dense layer of the arguments and the
    arguments unchanged. -/
theorem run : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefDense.lean ====
/-
  The reference computes the dense layer.

  The reference multiplies x by the transposed weight matrix, views the 192 output columns as 12 groups of 16, adds the
  16 biases to every group, and flattens back.  Read at entry (n, q): the two reshapes cancel (the flat position
  n·192 + q is split and recombined), the product is Σ_k x[n, k] · W^T[k, q], and the bias added is the one at position
  q mod 16 of its group.
-/
import proofs.«163079_j13417477833309_2_alg».proof.Proof.Gen.ReferenceIdeal.Read
import proofs.«163079_j13417477833309_2_alg».proof.Proof.Dense

noncomputable section

namespace Cert.ReferenceIdeal.IsDense

open Cert.ReferenceIdeal Cert.ReferenceIdeal.Read Idealize.ShloMosaic Idealize.ShloMosaic.ValueIdx Cert.Dense

/-- The reference's result, as a function of its arguments, is the dense layer of x, the transposed weight matrix it
    builds, and the biases. -/
theorem result_eq (x0 : (⟨S524288x192, .f32⟩ : BufTy).Contents (Elt Ideal)) (x1 : (⟨S12x16x16, .f32⟩ : BufTy).Contents (Elt Ideal))
    (x2 : (⟨S16, .f32⟩ : BufTy).Contents (Elt Ideal)) (x3 : (⟨S12x12, .i32⟩ : BufTy).Contents (Elt Ideal))
    (x4 : (⟨S12, .i32⟩ : BufTy).Contents (Elt Ideal)) :
    val_main_v34 (F := Ideal) x0 x1 x2 x3 x4 = dense x0 (val_main_v28 (F := Ideal) x1 x3 x4) x2 := by
  funext i
  obtain ⟨n, q, rfl⟩ : ∃ (n : Fin 524288) (q : Fin 192), i = ix2 n q := ⟨i 0, i 1, eq_ix2 i⟩
  have hn : n.val < 524288 := n.isLt
  have hq : q.val < 192 := q.isLt
  -- flattening [n, q] to [n, q / 16, q mod 16] and back to two axes is the identity
  have e1 : idx_main_v30 (idx_main_v34 (ix2 n q)) = ix2 n q := funext fun a => Fin.ext (by
    match a with
    | ⟨0, _⟩ =>
      show (((n.val * 192 + q.val) / 192 * 12 + (n.val * 192 + q.val) / 16 % 12) * 16 + (n.val * 192 + q.val) % 16) / 192 = n.val
      omega
    | ⟨1, _⟩ =>
      show (((n.val * 192 + q.val) / 192 * 12 + (n.val * 192 + q.val) / 16 % 12) * 16 + (n.val * 192 + q.val) % 16) % 192 = q.val
      omega)
  have el : ∀ k : Fin 192, lidx_main_v29 (ix2 n q) k = ix2 n k := fun k => funext fun a => Fin.ext (by
    match a with
    | ⟨0, _⟩ => rfl
    | ⟨1, _⟩ => rfl)
  have er : ∀ k : Fin 192, ridx_main_v29 (ix2 n q) k = ix2 k q := fun k => funext fun a => Fin.ext (by
    match a with
    | ⟨0, _⟩ => rfl
    | ⟨1, _⟩ => rfl)
  -- the bias read is the one at the position inside the group of 16
  have eb : idx_main_v31 (idx_main_v32 (idx_main_v34 (ix2 n q))) = ix1 ⟨q.val % 16, Nat.mod_lt _ (by decide)⟩ :=
    funext fun a => Fin.ext (by
      match a with
      | ⟨0, _⟩ =>
        show (n.val * 192 + q.val) % 16 = q.val % 16
        omega)
  rw [val_main_v34_apply, val_main_v33_apply, val_main_v30_apply, val_main_v29_apply, val_main_v32_apply, val_main_v31_apply,
    e1, eb, dense_apply]
  simp only [el, er]
  rfl

end Cert.ReferenceIdeal.IsDense

end
-- ==== Proof.lean ====
/-
  A group-equivariant dense layer: the kernel against its jnp reference, on the extended reals.

  Both programs first build the same 192×192 weight matrix W from the small [12,16,16] kernel by the same gathers through
  the Cayley table, the same transpose and reshape, and transpose it.  The reference then computes x · W^T with one
  matrix product, views the 192 output columns as 12 groups of 16, adds the 16 biases to each group and flattens back.
  The kernel rounds W^T to bf16 (the identity on extended reals), repeats the biases 12 times into one row of 192, and
  runs 64 grid points, each of which multiplies 8192 rows of x (in two chunks of 4096) by W^T into a zero accumulator and
  adds the bias row.  Entry (n, q) of either result is

        Σ_{k < 192} x[n, k] · W^T[k, q]  +  bias[q mod 16],

  the same finite sum of products followed by the same addition, so the two results are equal index by index with no
  use of finiteness of the inputs.  The modules:  Dense (the expression above as one function), Chunk and Block (what the
  kernel body stores, read at an index), Host (what the launch finds in the weight and bias operands), Whole (the 64
  row blocks tile the output), RefDense (the reference read at an index).  The idealization rewrote no operation, so
  that conjunct is trivial.
-/
import proofs.«163079_j13417477833309_2_alg».proof.Defs
import proofs.«163079_j13417477833309_2_alg».proof.Proof.Gen.Kernel
import proofs.«163079_j13417477833309_2_alg».proof.Proof.Gen.Kernel.Skeleton
import proofs.«163079_j13417477833309_2_alg».proof.Proof.Gen.Kernel.Launch
import proofs.«163079_j13417477833309_2_alg».proof.Proof.Gen.Kernel.Points
import proofs.«163079_j13417477833309_2_alg».proof.Proof.Gen.Kernel.Frame
import proofs.«163079_j13417477833309_2_alg».proof.Proof.Gen.KernelIdeal
import proofs.«163079_j13417477833309_2_alg».proof.Proof.Gen.KernelIdeal.Skeleton
import proofs.«163079_j13417477833309_2_alg».proof.Proof.Gen.KernelIdeal.Launch
import proofs.«163079_j13417477833309_2_alg».proof.Proof.Gen.KernelIdeal.Points
import proofs.«163079_j13417477833309_2_alg».proof.Proof.Gen.KernelIdeal.Frame
import proofs.«163079_j13417477833309_2_alg».proof.Proof.Gen.ReferenceIdeal
import proofs.«163079_j13417477833309_2_alg».proof.Proof.Gen.Pre_finite_inputs
import proofs.«163079_j13417477833309_2_alg».proof.Proof.Gen.KernelIdeal.Value
import proofs.«163079_j13417477833309_2_alg».proof.Proof.Gen.ReferenceIdeal.Run
import proofs.«163079_j13417477833309_2_alg».proof.Proof.Gen.ReferenceIdeal.Read
import proofs.«163079_j13417477833309_2_alg».proof.Proof.Whole
import proofs.«163079_j13417477833309_2_alg».proof.Proof.RefDense
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the dense layer of those arguments: the kernel
    by the tiling of its 64 row blocks, the reference by reading its operations at an index. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.IsDense.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
